-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S2000x128 : Shape := ⟨2, ![2000, 128]⟩
abbrev S850000x128 : Shape := ⟨2, ![850000, 128]⟩
abbrev S1x128 : Shape := ⟨2, ![1, 128]⟩
abbrev S50000x64 : Shape := ⟨2, ![50000, 64]⟩
abbrev S2000x64 : Shape := ⟨2, ![2000, 64]⟩
abbrev S850000x64 : Shape := ⟨2, ![850000, 64]⟩
abbrev S1x64 : Shape := ⟨2, ![1, 64]⟩

abbrev nBuf : Space → Nat
  | .hbm => 87
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x1, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x64, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x64, .f32⟩
  | .hbm, ⟨78, _⟩ => ⟨S850000x1, .f32⟩
  | .hbm, ⟨79, _⟩ => ⟨S850000x64, .f32⟩
  | .hbm, ⟨80, _⟩ => ⟨S850000x64, .f32⟩
  | .hbm, ⟨81, _⟩ => ⟨S_, .f32⟩
  | .hbm, ⟨82, _⟩ => ⟨S50000x64, .f32⟩
  | .hbm, ⟨83, _⟩ => ⟨S850000x1, .i32⟩
  | .hbm, ⟨84, _⟩ => ⟨S50000x64, .f32⟩
  | .hbm, ⟨85, _⟩ => ⟨S1x64, .f32⟩
  | .hbm, ⟨86, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x1, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x64, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x64, .f32⟩
  | .hbm, ⟨82, _⟩ => ⟨S850000x1, .f32⟩
  | .hbm, ⟨83, _⟩ => ⟨S850000x64, .f32⟩
  | .hbm, ⟨84, _⟩ => ⟨S850000x64, .f32⟩
  | .hbm, ⟨85, _⟩ => ⟨S_, .f32⟩
  | .hbm, ⟨86, _⟩ => ⟨S50000x64, .f32⟩
  | .hbm, ⟨87, _⟩ => ⟨S850000x1, .i32⟩
  | .hbm, ⟨88, _⟩ => ⟨S50000x64, .f32⟩
  | .hbm, ⟨89, _⟩ => ⟨S1x64, .f32⟩
  | .hbm, ⟨90, _⟩ => ⟨S50000x64, .f32⟩
  | .hbm, ⟨91, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel's run with its result array named.

  The program is four pipelined regions among stretches of host operations. Its generated frame runs the nine segments
  and reads, against the final state, that every buffer no region scopes ends at the last boundary's contents; it then
  keeps only the six argument arrays. Here the same run keeps one more buffer of that final reading: the result array,
  which ends at the last boundary's contents too. What those contents are is the subject of the other modules.
-/
import proofs.«112519_j77867757077116_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the six argument arrays as launched. -/
theorem run : θ_run defs (onTc (τ := τ) (main (F := F))) ⟨m, fun _ => 0, ρ⟩ (fun r => ∀ c : Dev nD,
      r.2.mem ((c.tc : Thread nD τ).loc main_v63) = W9 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v63 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Named

end
-- ==== Proof.Spec.lean ====
/-
  The specification: a two-layer graph convolution, as one function of the six argument arrays.

  The graph has 50000 nodes and 800000 directed edges given as a [2, 800000] integer array (row 0 the sources, row 1 the
  destinations); every node also gets a self loop, so there are 850000 edge slots. With deg(v) the number of slots whose
  destination is v and  d(v) = deg(v)^(-1/2) where deg(v) > 0 (taken of max(deg(v), 1)), else 0,  slot s carries the
  weight  norm(s) = d(src s) · d(dst s).  A layer maps a node array H to

      agg(H)(v, j) = Σ over slots s with dst s = v of  H(src s, j) · norm(s),

  and the network is   out = agg(relu(agg(X · W1) + b1) · W2) + b2,   the biases added to every row.

  Every stage below is written with the host operations of the reference program (its slices, concatenations, gathers
  and scatter-adds, with its index normalisation of negative indices), over any float type; the stages are cut so that
  the degree, the normalisation and the index arrays are stated once and shared by both layers. How a gather or a
  scatter-add treats an index outside the array never matters here: both programs apply the same operation to the same
  indices.
-/
import proofs.«112519_j77867757077116_1_alg».proof.Proof.Gen.ReferenceIdeal
import Idealize.ShloMosaic.PureOps.Ideal

noncomputable section

namespace Cert.Gcn

open Cert.ReferenceIdeal Cert.ReferenceIdeal.Gen Idealize.ShloMosaic Idealize.ShloMosaic.TcCoe Idealize.SL.Sem Idealize.ShloMosaic.StableHlo

variable {F : FTy → Type} [FloatOps F]

/-! ## The edge slots -/

/-- The source of every slot: row 0 of the edge array, then the nodes 0 … 49999 (the self loops). -/
def src (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The destination of every slot: row 1 of the edge array, then the nodes 0 … 49999. -/
def dst (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- The sources as gather indices: a negative index has the node count added to it. -/
def wrapSrc (e : (⟨S2x800000, .i32⟩ : BufTy).Contents (Elt F)) : (⟨S850000, .i32⟩ : BufTy).Contents (Elt F) :=
  select (cmpi .slt (src (F := F) e) (broadcastInDim S850000 ![] bcast_S_S850000 (constantI S_ 32 0#32))) (addi (src (F := F) e) (broadcastInDim S850000 ![] bcast_S_S850000 (constantI S_ 32 50000#32))) (src (F := F) e)

/-- The destinations as gather indices, normalised the same way. -/
def wrapDst (e : (⟨S2x800000, .i32⟩ : BufTy).Contents (Elt F)) : (⟨S850000, .i32⟩ : BufTy).Contents (Elt F) :=
  select (cmpi .slt (dst (F := F) e) (broadcastInDim S850000 ![] bcast_S_S850000 (constantI S_ 32 0#32))) (addi (dst (F := F) e) (broadcastInDim S850000 ![] bcast_S_S850000 (constantI S_ 32 50000#32))) (dst (F := F) e)

/-! ## The symmetric normalisation -/

/-- deg(v): one added at every slot's destination, from zero. -/
def deg (e : (⟨S2x800000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 (dst (F := F) e)) (broadcastInDim S850000 ![] bcast_S_S850000 (constant S_ .f32 0x3F800000#32))

/-- d(v) = rsqrt(max(deg(v), 1)) where deg(v) > 0, else 0. -/
def dis (e : (⟨S2x800000, .i32⟩ : BufTy).Contents (Elt F)) : (⟨S50000, .f32⟩ : BufTy).Contents (Elt F) :=
  select (cmpf .ogt (deg (F := F) e) (broadcastInDim S50000 ![] bcast_S_S50000 (constant S_ .f32 0x00000000#32))) (Host.rsqrt (maximumf (deg (F := F) e) (broadcastInDim S50000 ![] bcast_S_S50000 (constant S_ .f32 0x3F800000#32)))) (broadcastInDim S50000 ![] bcast_S_S50000 (id (constant S_ .f32 0x00000000#32)))

/-- norm(s) = d(src s) · d(dst s). -/
def norm (e : (⟨S2x800000, .i32⟩ : BufTy).Contents (Elt F)) : (⟨S850000, .f32⟩ : BufTy).Contents (Elt F) :=
  mulf (Host.gather gather_S50000_S850000x1_S850000_n_0_n_n_0_1_1 (dis (F := F) e) (broadcastInDim S850000x1 ![0] bcast_S850000_S850000x1_0 (wrapSrc (F := F) e))) (Host.gather gather_S50000_S850000x1_S850000_n_0_n_n_0_1_1 (dis (F := F) e) (broadcastInDim S850000x1 ![0] bcast_S850000_S850000x1_0 (wrapDst (F := F) e)))

/-! ## The layers' pieces -/

/-- The first dense transform, X · W1. -/
def dense1 (x0 : (⟨S50000x128, .f32⟩ : BufTy).Contents (Elt F)) (w1 : (⟨S128x128, .f32⟩ : BufTy).Contents (Elt F)) : (⟨S50000x128, .f32⟩ : BufTy).Contents (Elt F) :=
  Host.dotGeneral dot_S50000x128_S128x128_S50000x128_1_0_0_1_n_n none x0 w1

/-- Aggregation of a [50000, 128] node array: gather the rows at the sources, scale slot s by norm(s), add at the
    destinations. -/
def agg1 (e : (⟨S2x800000, .i32⟩ : BufTy).Contents (Elt F)) (h : (⟨S50000x128, .f32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 (dst (F := F) e)) (mulf (Host.gather gather_S50000x128_S850000x1_S850000x128_1_0_n_n_0_1_1128 h (broadcastInDim S850000x1 ![0] bcast_S850000_S850000x1_0 (wrapSrc (F := F) e))) (broadcastInDim S850000x128 ![0, 1] bcast_S850000x1_S850000x128_0_1 (broadcastInDim S850000x1 ![0] bcast_S850000_S850000x1_0 (norm (F := F) e))))

/-- Bias on every row, then the positive part. -/
def biasRelu (a : (⟨S50000x128, .f32⟩ : BufTy).Contents (Elt F)) (b1 : (⟨S128, .f32⟩ : BufTy).Contents (Elt F)) : (⟨S50000x128, .f32⟩ : BufTy).Contents (Elt F) :=
  maximumf (addf a (broadcastInDim S50000x128 ![0, 1] bcast_S1x128_S50000x128_0_1 (broadcastInDim S1x128 ![1] bcast_S128_S1x128_1 b1))) (broadcastInDim S50000x128 ![] bcast_S_S50000x128 (constant S_ .f32 0x00000000#32))

/-- The second dense transform, H · W2. -/
def dense2 (h : (⟨S50000x128, .f32⟩ : BufTy).Contents (Elt F)) (w2 : (⟨S128x64, .f32⟩ : BufTy).Contents (Elt F)) : (⟨S50000x64, .f32⟩ : BufTy).Contents (Elt F) :=
  Host.dotGeneral dot_S50000x128_S128x64_S50000x64_1_0_0_1_n_n none h w2

/-- Aggregation of a [50000, 64] node array, with the same slots and weights. -/
def agg2 (e : (⟨S2x800000, .i32⟩ : BufTy).Contents (Elt F)) (h : (⟨S50000x64, .f32⟩ : BufTy).Contents (Elt F)) : (⟨S50000x64, .f32⟩ : BufTy).Contents (Elt F) :=
  Host.scatterAdd scatter_S50000x64_S850000x1_S850000x64_1_0_0_1 (broadcastInDim S50000x64 ![] bcast_S_S50000x64 (constant S_ .f32 0x00000000#32)) (broadcastInDim S850000x1 ![0] bcast_S850000_S850000x1_0 (dst (F := F) e)) (mulf (Host.gather gather_S50000x64_S850000x1_S850000x64_1_0_n_n_0_1_164 h (broadcastInDim S850000x1 ![0] bcast_S850000_S850000x1_0 (wrapSrc (F := F) e))) (broadcastInDim S850000x64 ![0, 1] bcast_S850000x1_S850000x64_0_1 (broadcastInDim S850000x1 ![0] bcast_S850000_S850000x1_0 (norm (F := F) e))))

/-- Bias on every row of a [50000, 64] array. -/
def bias (a : (⟨S50000x64, .f32⟩ : BufTy).Contents (Elt F)) (b2 : (⟨S64, .f32⟩ : BufTy).Contents (Elt F)) : (⟨S50000x64, .f32⟩ : BufTy).Contents (Elt F) :=
  addf a (broadcastInDim S50000x64 ![0, 1] bcast_S1x64_S50000x64_0_1 (broadcastInDim S1x64 ![1] bcast_S64_S1x64_1 b2))

/-- The network: out = agg(relu(agg(X · W1) + b1) · W2) + b2. -/
def out (x0 : (⟨S50000x128, .f32⟩ : BufTy).Contents (Elt F)) (e : (⟨S2x800000, .i32⟩ : BufTy).Contents (Elt F)) (w1 : (⟨S128x128, .f32⟩ : BufTy).Contents (Elt F)) (b1 : (⟨S128, .f32⟩ : BufTy).Contents (Elt F))
    (w2 : (⟨S128x64, .f32⟩ : BufTy).Contents (Elt F)) (b2 : (⟨S64, .f32⟩ : BufTy).Contents (Elt F)) : (⟨S50000x64, .f32⟩ : BufTy).Contents (Elt F) :=
  bias (F := F) (agg2 (F := F) e (dense2 (F := F) (biasRelu (F := F) (agg1 (F := F) e (dense1 (F := F) x0 w1)) b1) w2)) b2

end Cert.Gcn

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.SpecAt.lean ====
/-
  The specification's dense stages read at an entry, on the extended reals.

  Entry (r, q) of a dense transform is the sum over k of  left (r, k) · right (k, q);  entry (r, q) of a biased array is
  the entry plus the bias of column q, and the positive part is the maximum with zero. Nothing here needs the entries to
  be finite: these are the operations' own definitions on the extended reals.
-/
import proofs.«112519_j77867757077116_1_alg».proof.Proof.Spec
import proofs.«112519_j77867757077116_1_alg».proof.Proof.LibPlainDot
import Idealize.ShloMosaic.Lib.ValueIdx
import Idealize.ShloMosaic.Lib.Pipeline.Value

noncomputable section

namespace Cert.Gcn

open Cert.ReferenceIdeal Cert.ReferenceIdeal.Gen Idealize.ShloMosaic Idealize.ShloMosaic.TcCoe Idealize.SL.Sem
open Idealize.ShloMosaic.ValueIdx

/-- X · W1 at (r, q). -/
theorem dense1_apply (x0 : (⟨S50000x128, .f32⟩ : BufTy).Contents (Elt Ideal)) (w1 : (⟨S128x128, .f32⟩ : BufTy).Contents (Elt Ideal))
    (r : Fin 50000) (q : Fin 128) :
    dense1 (F := Ideal) x0 w1 (ix2 r q) = ∑ k : Fin 128, x0 (ix2 r k) * w1 (ix2 k q) := by
  unfold dense1
  exact PlainDot.hostDot_apply (M := 50000) (K := 128) (N := 128) _ rfl none x0 w1 (ix2 r q)

/-- H · W2 at (r, q). -/
theorem dense2_apply (h : (⟨S50000x128, .f32⟩ : BufTy).Contents (Elt Ideal)) (w2 : (⟨S128x64, .f32⟩ : BufTy).Contents (Elt Ideal))
    (r : Fin 50000) (q : Fin 64) :
    dense2 (F := Ideal) h w2 (ix2 r q) = ∑ k : Fin 128, h (ix2 r k) * w2 (ix2 k q) := by
  unfold dense2
  exact PlainDot.hostDot_apply (M := 50000) (K := 128) (N := 64) _ rfl none h w2 (ix2 r q)

/-- A [128] row spread over 50000 rows, read at (r, q): the row's entry q. -/
theorem rows128_apply (b1 : (⟨S128, .f32⟩ : BufTy).Contents (Elt Ideal)) (r : Fin 50000) (q : Fin 128) :
    broadcastInDim S50000x128 ![0, 1] bcast_S1x128_S50000x128_0_1 (broadcastInDim S1x128 ![1] bcast_S128_S1x128_1 b1) (ix2 r q)
      = b1 (ix1 q) := by
  generalize hy : broadcastInDim S1x128 ![1] bcast_S128_S1x128_1 b1 = y
  rw [broadcastInDim_apply _ bcast_S1x128_S50000x128_0_1 y (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])]
  subst hy
  exact broadcastInDim_apply _ bcast_S128_S1x128_1 b1 (ix2 (0 : Fin 1) q) (ix1 q) (fun a => match a with
    | ⟨0, _⟩ => by show q.val = if (128 : Nat) = 1 then 0 else q.val; rw [if_neg (by decide)])

/-- A [64] row spread over 50000 rows, read at (r, q): the row's entry q. -/
theorem rows64_apply (b2 : (⟨S64, .f32⟩ : BufTy).Contents (Elt Ideal)) (r : Fin 50000) (q : Fin 64) :
    broadcastInDim S50000x64 ![0, 1] bcast_S1x64_S50000x64_0_1 (broadcastInDim S1x64 ![1] bcast_S64_S1x64_1 b2) (ix2 r q)
      = b2 (ix1 q) := by
  generalize hy : broadcastInDim S1x64 ![1] bcast_S64_S1x64_1 b2 = y
  rw [broadcastInDim_apply _ bcast_S1x64_S50000x64_0_1 y (ix2 r q) (ix2 (0 : Fin 1) q) (fun a => match a with
    | ⟨0, _⟩ => by show 0 = if (1 : Nat) = 1 then 0 else r.val; rw [if_pos rfl]
    | ⟨1, _⟩ => by show q.val = if (64 : Nat) = 1 then 0 else q.val; rw [if_neg (by decide)])]
  subst hy
  exact broadcastInDim_apply _ bcast_S64_S1x64_1 b2 (ix2 (0 : Fin 1) q) (ix1 q) (fun a => match a with
    | ⟨0, _⟩ => by show q.val = if (64 : Nat) = 1 then 0 else q.val; rw [if_neg (by decide)])

/-- relu(A + b1) at (r, q). -/
theorem biasRelu_apply (a : (⟨S50000x128, .f32⟩ : BufTy).Contents (Elt Ideal)) (b1 : (⟨S128, .f32⟩ : BufTy).Contents (Elt Ideal))
    (r : Fin 50000) (q : Fin 128) :
    biasRelu (F := Ideal) a b1 (ix2 r q) = max (a (ix2 r q) + b1 (ix1 q)) (Ideal.ofBits .f32 0x00000000#32) := by
  unfold biasRelu
  rw [maximumf_apply, addf_apply, rows128_apply]
  rfl

/-- A + b2 at (r, q). -/
theorem bias_apply (a : (⟨S50000x64, .f32⟩ : BufTy).Contents (Elt Ideal)) (b2 : (⟨S64, .f32⟩ : BufTy).Contents (Elt Ideal))
    (r : Fin 50000) (q : Fin 64) :
    bias (F := Ideal) a b2 (ix2 r q) = a (ix2 r q) + b2 (ix1 q) := by
  unfold bias
  rw [addf_apply, rows64_apply]

end Cert.Gcn

end
-- ==== Proof.Region0.lean ====
/-
  Region 0: the first dense transform, X · W1, computed band by band.

  A grid point t handles rows 2000·t … 2000·t + 1999: its first window is that band of the left array, its second
  window the whole right array, and the body stores the band's product into its output block. Entry (p, q) of the block
  is Σ_k left(2000·t + p, k) · right(k, q) — the same sum as entry (2000·t + p, q) of the product of the whole arrays —
  so every point writes back the band of ONE array, the whole product; the 25 bands tile the 50000 rows, and the array
  ends as that product. The narrowing of the operands to a shorter float format before the product is the identity on
  extended reals, and adding into a zero accumulator changes nothing.
-/
import proofs.«112519_j77867757077116_1_alg».proof.Proof.Gen.KernelIdeal.Frame
import proofs.«112519_j77867757077116_1_alg».proof.Proof.SpecAt

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem origin : (![0, 0] : Fin 2 → Nat) = fun _ => 0 := funext fun a => by fin_cases a <;> rfl

/-- The body's stored value at (p, q): the sum over k of the loaded band's (p, k) times the loaded right array's (k, q). -/
theorem payload_apply (x : Vec Ideal S2000x128 .f32) (w : Vec Ideal S128x128 .f32) (p : Fin 2000) (q : Fin 128) :
    k0_pay1 x w (ix2 p q) = ∑ k : Fin 128, x (ix2 p k) * w (ix2 k q) := by
  unfold k0_pay1
  exact PlainDot.matmul_zero_apply (M := 2000) (K := 128) (N := 128) _ rfl none _ _ (ix2 p q)

/-- A band of the left array at row offset o against the whole right array: the stored block's (p, q) is the whole
    product's (o + p, q). -/
theorem band_eq (X : (⟨S50000x128, .f32⟩ : BufTy).Contents (Elt Ideal)) (Wt : (⟨S128x128, .f32⟩ : BufTy).Contents (Elt Ideal))
    (x : Vec Ideal S2000x128 .f32) (w : Vec Ideal S128x128 .f32) (o : Nat) (ho : o + 2000 ≤ 50000)
    (hx : ∀ (p : Fin 2000) (k : Fin 128), x (ix2 p k) = X (ix2 ⟨o + p.val, by have := p.isLt; omega⟩ k))
    (hw : ∀ (k : Fin 128) (q : Fin 128), w (ix2 k q) = Wt (ix2 k q))
    (p : Fin 2000) (q : Fin 128) :
    k0_pay1 x w (ix2 p q) = Cert.Gcn.dense1 (F := Ideal) X Wt (ix2 ⟨o + p.val, by have := p.isLt; omega⟩ q) := by
  rw [payload_apply, Cert.Gcn.dense1_apply]
  exact Finset.sum_congr rfl fun k _ => by rw [hx, hw]

/-- The printed index maps over the grid: the left band and the output block move together along the rows, the right
    array's block stays at the origin, and the output's block index stays below 25. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 24
    ∧ win0_2.index t (1 : Fin 2) = 0 :=
  (by decide +kernel : ∀ t : Fin grid0.N, _)

/-- Every band of rows is some point's output block. -/
theorem index_onto : ∀ (b : Fin 25), ∃ t : Fin cfg0.N, win0_2.index t = ![b.val, 0] :=
  (by decide +kernel : ∀ (b : Fin 25), ∃ t : Fin grid0.N, win0_2.index t = ![b.val, 0])

/-- What point t writes back is band t of the product of the two arrays as the region finds them. -/
theorem flushed_eq (c : Dev nD) (t : Fin cfg0.N) :
    (dat0 V c).flushed 2 t
      = ((cfg0.win 2).blk t).view.read (Elt Ideal) (Cert.Gcn.dense1 (F := Ideal) (V c main_arg0) (V c main_arg2)) := by
  show (cfg0.win 2).cut (grid0.coords t) ((dat0 V c).after 2 t) = _
  rw [after0_2]
  unfold out0_2
  rw [View.canon_unit_zero origin]
  simp only [View.ld_unit_zero (S := S2000x128) origin, View.ld_unit_zero (S := S128x128) origin]
  obtain ⟨e0, e1, e2, e3, e4, e5⟩ := index_facts t
  funext j
  obtain ⟨p, q, rfl⟩ : ∃ (p : Fin 2000) (q : Fin 128), j = ix2 p q :=
    ⟨⟨(j 0).val, (j 0).isLt⟩, ⟨(j 1).val, (j 1).isLt⟩, by funext a; match a with | ⟨0, _⟩ => rfl | ⟨1, _⟩ => rfl⟩
  have hblk : win0_2.index t (0 : Fin 2) * 2000 + 2000 ≤ 50000 := by omega
  show k0_pay1 (iblk0 V c 0 t) (iblk0 V c 1 t) (ix2 p q)
      = Cert.Gcn.dense1 (F := Ideal) (V c main_arg0) (V c main_arg2) (((cfg0.win 2).blk t).view.emb (ix2 p q))
  refine (band_eq (V c main_arg0) (V c main_arg2) (iblk0 V c 0 t) (iblk0 V c 1 t) (win0_2.index t (0 : Fin 2) * 2000) hblk
    (fun p' k => ?_) (fun k q' => ?_) p q).trans ?_
  · show V c main_arg0 (((cfg0.win 0).blk t).view.emb (ix2 p' k)) = V c main_arg0 _
    refine congrArg (V c main_arg0) (funext fun a => Fin.ext ?_)
    match a with
    | ⟨0, _⟩ => show win0_0.index t (0 : Fin 2) * 2000 + 1 * p'.val = win0_2.index t (0 : Fin 2) * 2000 + p'.val; omega
    | ⟨1, _⟩ => show win0_0.index t (1 : Fin 2) * 128 + 1 * k.val = k.val; omega
  · show V c main_arg2 (((cfg0.win 1).blk t).view.emb (ix2 k q')) = V c main_arg2 _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * q'.val = q'.val; omega
  · refine congrArg (Cert.Gcn.dense1 (F := Ideal) (V c main_arg0) (V c main_arg2)) (funext fun a => Fin.ext ?_)
    match a with
    | ⟨0, _⟩ => show win0_2.index t (0 : Fin 2) * 2000 + p.val = win0_2.index t (0 : Fin 2) * 2000 + 1 * p.val; omega
    | ⟨1, _⟩ => show q.val = win0_2.index t (1 : Fin 2) * 128 + 1 * q.val; omega

/-- An index of the array is in point t's block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v32).slice (win0_2.rect t)).set ↔ _
  rw [View.set_slice_whole, Rect.mem_set_unit]
  exact Iff.rfl

/-- The 25 bands cover the array: row r lies in band r / 2000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := index_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The output array after the region: the product of the two input arrays as the region finds them. -/
theorem final (c : Dev nD) :
    (dat0 V c).arrAt 2 cfg0.N = Cert.Gcn.dense1 (F := Ideal) (V c main_arg0) (V c main_arg2) :=
  (dat0 V c).arrAt_eq_of_cover 2 _ (fun t _ => flushed_eq V c t) cover

end Cert.KernelIdeal.Region0

end
-- ==== Proof.Region1.lean ====
/-
  Region 1: the first layer's bias and positive part, relu(agg + b1), band by band.

  A grid point t handles rows 2000·t … 2000·t + 1999: its first window is that band of the aggregated array, its second
  window the bias as a one-row array, and the body stores  band(p, q) + bias(0, q),  then the maximum with zero,  into its output block. That is
  entry (2000·t + p, q) of ONE whole-array function — the specification's biased array — so every point writes back a band
  of it; the 25 bands tile the 50000 rows, and the array ends as that function. The bias reaches the region as a [1, 128]
  array whose entry (0, q) is the bias vector's entry q (hypothesis `hb`, discharged where the region is entered).
-/
import proofs.«112519_j77867757077116_1_alg».proof.Proof.Gen.KernelIdeal.Frame
import proofs.«112519_j77867757077116_1_alg».proof.Proof.SpecAt
import Idealize.ShloMosaic.Lib.ValueLayout

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem origin : (![0, 0] : Fin 2 → Nat) = fun _ => 0 := funext fun a => by fin_cases a <;> rfl

/-- The body's stored value at (p, q): the loaded band's (p, q) plus the loaded one-row bias at (0, q), floored at zero. -/
theorem payload_apply (x : FVec Ideal S2000x128 .f32) (b : FVec Ideal S1x128 .f32) (p : Fin 2000) (q : Fin 128) :
    k1_pay1 (F := Ideal) x b (ix2 p q) = max (x (ix2 p q) + b (ix2 (0 : Fin 1) q)) (Ideal.ofBits .f32 0x00000000#32) := by
  unfold k1_pay1
  show max (shapeCast S2000x128 x shapeCasts_S2000x128_S2000x128 (ix2 p q)
        + broadcastTo S2000x128 (shapeCast S1x128 b shapeCasts_S1x128_S1x128) broadcasts_S1x128_S2000x128 (ix2 p q))
      (Ideal.ofBits .f32 0x00000000#32) = _
  rw [shapeCast_self, shapeCast_self, broadcastTo_1b_ab_apply]

/-- A band of the aggregated array at row offset o with the bias row: the stored block's (p, q) is the specification's
    biased array at (o + p, q). -/
theorem band_eq (A : (⟨S50000x128, .f32⟩ : BufTy).Contents (Elt Ideal)) (bb : (⟨S128, .f32⟩ : BufTy).Contents (Elt Ideal))
    (x : FVec Ideal S2000x128 .f32) (b : FVec Ideal S1x128 .f32) (o : Nat) (ho : o + 2000 ≤ 50000)
    (hx : ∀ (p : Fin 2000) (q : Fin 128), x (ix2 p q) = A (ix2 ⟨o + p.val, by have := p.isLt; omega⟩ q))
    (hb : ∀ (q : Fin 128), b (ix2 (0 : Fin 1) q) = bb (ix1 q))
    (p : Fin 2000) (q : Fin 128) :
    k1_pay1 (F := Ideal) x b (ix2 p q) = Cert.Gcn.biasRelu (F := Ideal) A bb (ix2 ⟨o + p.val, by have := p.isLt; omega⟩ q) := by
  rw [payload_apply, Cert.Gcn.biasRelu_apply, hx, hb]

/-- The printed index maps over the grid: the input band and the output block move together along the rows, the bias
    row's block stays at the origin, and the output's block index stays below 25. -/
theorem index_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) ≤ 24
    ∧ win1_2.index t (1 : Fin 2) = 0 :=
  (by decide +kernel : ∀ t : Fin grid1.N, _)

/-- Every band of rows is some point's output block. -/
theorem index_onto : ∀ (b : Fin 25), ∃ t : Fin cfg1.N, win1_2.index t = ![b.val, 0] :=
  (by decide +kernel : ∀ (b : Fin 25), ∃ t : Fin grid1.N, win1_2.index t = ![b.val, 0])

/-- What point t writes back is band t of the specification's biased array of the arrays as the region finds them. -/
theorem flushed_eq (c : Dev nD) (bb : (⟨S128, .f32⟩ : BufTy).Contents (Elt Ideal))
    (hb : ∀ (q : Fin 128), V c main_v46 (ix2 (0 : Fin 1) q) = bb (ix1 q)) (t : Fin cfg1.N) :
    (dat1 V c).flushed 2 t
      = ((cfg1.win 2).blk t).view.read (Elt Ideal) (Cert.Gcn.biasRelu (F := Ideal) (V c main_v45) bb) := by
  show (cfg1.win 2).cut (grid1.coords t) ((dat1 V c).after 2 t) = _
  rw [after1_2]
  unfold out1_2
  rw [View.canon_unit_zero origin]
  simp only [View.ld_unit_zero (S := S2000x128) origin, View.ld_unit_zero (S := S1x128) origin]
  obtain ⟨e0, e1, e2, e3, e4, e5⟩ := index_facts t
  funext j
  obtain ⟨p, q, rfl⟩ : ∃ (p : Fin 2000) (q : Fin 128), j = ix2 p q :=
    ⟨⟨(j 0).val, (j 0).isLt⟩, ⟨(j 1).val, (j 1).isLt⟩, by funext a; match a with | ⟨0, _⟩ => rfl | ⟨1, _⟩ => rfl⟩
  have hblk : win1_2.index t (0 : Fin 2) * 2000 + 2000 ≤ 50000 := by omega
  show k1_pay1 (F := Ideal) (iblk1 V c 0 t) (iblk1 V c 1 t) (ix2 p q)
      = Cert.Gcn.biasRelu (F := Ideal) (V c main_v45) bb (((cfg1.win 2).blk t).view.emb (ix2 p q))
  refine (band_eq (V c main_v45) bb (iblk1 V c 0 t) (iblk1 V c 1 t) (win1_2.index t (0 : Fin 2) * 2000) hblk
    (fun p' q' => ?_) (fun q' => ?_) p q).trans ?_
  · show V c main_v45 (((cfg1.win 0).blk t).view.emb (ix2 p' q')) = V c main_v45 _
    refine congrArg (V c main_v45) (funext fun a => Fin.ext ?_)
    match a with
    | ⟨0, _⟩ => show win1_0.index t (0 : Fin 2) * 2000 + 1 * p'.val = win1_2.index t (0 : Fin 2) * 2000 + p'.val; omega
    | ⟨1, _⟩ => show win1_0.index t (1 : Fin 2) * 128 + 1 * q'.val = q'.val; omega
  · refine Eq.trans ?_ (hb q')
    show V c main_v46 (((cfg1.win 1).blk t).view.emb (ix2 (0 : Fin 1) q')) = V c main_v46 _
    refine congrArg (V c main_v46) (funext fun a => Fin.ext ?_)
    match a with
    | ⟨0, _⟩ => show win1_1.index t (0 : Fin 2) * 1 + 1 * 0 = 0; omega
    | ⟨1, _⟩ => show win1_1.index t (1 : Fin 2) * 128 + 1 * q'.val = q'.val; omega
  · refine congrArg (Cert.Gcn.biasRelu (F := Ideal) (V c main_v45) bb) (funext fun a => Fin.ext ?_)
    match a with
    | ⟨0, _⟩ => show win1_2.index t (0 : Fin 2) * 2000 + p.val = win1_2.index t (0 : Fin 2) * 2000 + 1 * p.val; omega
    | ⟨1, _⟩ => show q.val = win1_2.index t (1 : Fin 2) * 128 + 1 * q.val; omega

/-- An index of the array is in point t's block iff each coordinate is in the block's range on its axis. -/
theorem mem_blk (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v47).slice (win1_2.rect t)).set ↔ _
  rw [View.set_slice_whole, Rect.mem_set_unit]
  exact Iff.rfl

/-- The 25 bands cover the array: row r lies in band r / 2000. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := index_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- The output array after the region: the specification's biased array of the input array and the bias vector. -/
theorem final (c : Dev nD) (bb : (⟨S128, .f32⟩ : BufTy).Contents (Elt Ideal))
    (hb : ∀ (q : Fin 128), V c main_v46 (ix2 (0 : Fin 1) q) = bb (ix1 q)) :
    (dat1 V c).arrAt 2 cfg1.N = Cert.Gcn.biasRelu (F := Ideal) (V c main_v45) bb :=
  (dat1 V c).arrAt_eq_of_cover 2 _ (fun t _ => flushed_eq V c bb hb t) cover

end Cert.KernelIdeal.Region1

end
-- ==== Proof.Region2.lean ====
/-
  Region 2: the second dense transform, H · W2, computed band by band.

  A grid point t handles rows 2000·t … 2000·t + 1999: its first window is that band of the left array, its second
  window the whole right array, and the body stores the band's product into its output block. Entry (p, q) of the block
  is Σ_k left(2000·t + p, k) · right(k, q) — the same sum as entry (2000·t + p, q) of the product of the whole arrays —
  so every point writes back the band of ONE array, the whole product; the 25 bands tile the 50000 rows, and the array
  ends as that product. The narrowing of the operands to a shorter float format before the product is the identity on
  extended reals, and adding into a zero accumulator changes nothing.
-/
import proofs.«112519_j77867757077116_1_alg».proof.Proof.Gen.KernelIdeal.Frame
import proofs.«112519_j77867757077116_1_alg».proof.Proof.SpecAt

set_option maxRecDepth 16384

noncomputable section

namespace Cert.KernelIdeal.Region2

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem origin : (![0, 0] : Fin 2 → Nat) = fun _ => 0 := funext fun a => by fin_cases a <;> rfl

/-- The body's stored value at (p, q): the sum over k of the loaded band's (p, k) times the loaded right array's (k, q). -/
theorem payload_apply (x : Vec Ideal S2000x128 .f32) (w : Vec Ideal S128x64 .f32) (p : Fin 2000) (q : Fin 64) :
    k2_pay1 x w (ix2 p q) = ∑ k : Fin 128, x (ix2 p k) * w (ix2 k q) := by
  unfold k2_pay1
  rw [shapeCast_self]
  exact PlainDot.matmul_zero_apply (M := 2000) (K := 128) (N := 64) _ rfl none _ _ (ix2 p q)

/-- A band of the left array at row offset o against the whole right array: the stored block's (p, q) is the whole
    product's (o + p, q). -/
theorem band_eq (X : (⟨S50000x128, .f32⟩ : BufTy).Contents (Elt Ideal)) (Wt : (⟨S128x64, .f32⟩ : BufTy).Contents (Elt Ideal))
    (x : Vec Ideal S2000x128 .f32) (w : Vec Ideal S128x64 .f32) (o : Nat) (ho : o + 2000 ≤ 50000)
    (hx : ∀ (p : Fin 2000) (k : Fin 128), x (ix2 p k) = X (ix2 ⟨o + p.val, by have := p.isLt; omega⟩ k))
    (hw : ∀ (k : Fin 128) (q : Fin 64), w (ix2 k q) = Wt (ix2 k q))
    (p : Fin 2000) (q : Fin 64) :
    k2_pay1 x w (ix2 p q) = Cert.Gcn.dense2 (F := Ideal) X Wt (ix2 ⟨o + p.val, by have := p.isLt; omega⟩ q) := by
  rw [payload_apply, Cert.Gcn.dense2_apply]
  exact Finset.sum_congr rfl fun k _ => by rw [hx, hw]

/-- The printed index maps over the grid: the left band and the output block move together along the rows, the right
    array's block stays at the origin, and the output's block index stays below 25. -/
theorem index_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) ≤ 24
    ∧ win2_2.index t (1 : Fin 2) = 0 :=
  (by decide +kernel : ∀ t : Fin grid2.N, _)

/-- Every band of rows is some point's output block. -/
theorem index_onto : ∀ (b : Fin 25), ∃ t : Fin cfg2.N, win2_2.index t = ![b.val, 0] :=
  (by decide +kernel : ∀ (b : Fin 25), ∃ t : Fin grid2.N, win2_2.index t = ![b.val, 0])

/-- What point t writes back is band t of the product of the two arrays as the region finds them. -/
theorem flushed_eq (c : Dev nD) (t : Fin cfg2.N) :
    (dat2 V c).flushed 2 t
      = ((cfg2.win 2).blk t).view.read (Elt Ideal) (Cert.Gcn.dense2 (F := Ideal) (V c main_v47) (V c main_arg4)) := by
  show (cfg2.win 2).cut (grid2.coords t) ((dat2 V c).after 2 t) = _
  rw [after2_2]
  unfold out2_2
  rw [View.canon_unit_zero origin]
  simp only [View.ld_unit_zero (S := S2000x128) origin, View.ld_unit_zero (S := S128x64) origin]
  obtain ⟨e0, e1, e2, e3, e4, e5⟩ := index_facts t
  funext j
  obtain ⟨p, q, rfl⟩ : ∃ (p : Fin 2000) (q : Fin 64), j = ix2 p q :=
    ⟨⟨(j 0).val, (j 0).isLt⟩, ⟨(j 1).val, (j 1).isLt⟩, by funext a; match a with | ⟨0, _⟩ => rfl | ⟨1, _⟩ => rfl⟩
  have hblk : win2_2.index t (0 : Fin 2) * 2000 + 2000 ≤ 50000 := by omega
  show k2_pay1 (iblk2 V c 0 t) (iblk2 V c 1 t) (ix2 p q)
      = Cert.Gcn.dense2 (F := Ideal) (V c main_v47) (V c main_arg4) (((cfg2.win 2).blk t).view.emb (ix2 p q))
  refine (band_eq (V c main_v47) (V c main_arg4) (iblk2 V c 0 t) (iblk2 V c 1 t) (win2_2.index t (0 : Fin 2) * 2000) hblk
    (fun p' k => ?_) (fun k q' => ?_) p q).trans ?_
  · show V c main_v47 (((cfg2.win 0).blk t).view.emb (ix2 p' k)) = V c main_v47 _
    refine congrArg (V c main_v47) (funext fun a => Fin.ext ?_)
    match a with
    | ⟨0, _⟩ => show win2_0.index t (0 : Fin 2) * 2000 + 1 * p'.val = win2_2.index t (0 : Fin 2) * 2000 + p'.val; omega
    | ⟨1, _⟩ => show win2_0.index t (1 : Fin 2) * 128 + 1 * k.val = k.val; omega
  · show V c main_arg4 (((cfg2.win 1).blk t).view.emb (ix2 k q')) = V c main_arg4 _
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 64 + 1 * q'.val = q'.val; omega
  · refine congrArg (Cert.Gcn.dense2 (F := Ideal) (V c main_v47) (V c main_arg4)) (funext fun a => Fin.ext ?_)
    match a with
    | ⟨0, _⟩ => show win2_2.index t (0 : Fin 2) * 2000 + p.val = win2_2.index t (0 : Fin 2) * 2000 + 1 * p.val; omega
    | ⟨1, _⟩ => show q.val = win2_2.index t (1 : Fin 2) * 64 + 1 * q.val; omega

/-- An index of the array is in point t's block iff each coordinate is in the block's range on its axis. -/
theorem mem_blk (t : Fin cfg2.N) (i : S50000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v48).slice (win2_2.rect t)).set ↔ _
  rw [View.set_slice_whole, Rect.mem_set_unit]
  exact Iff.rfl

/-- The 25 bands cover the array: row r lies in band r / 2000. -/
theorem cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := index_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

/-- The output array after the region: the product of the two input arrays as the region finds them. -/
theorem final (c : Dev nD) :
    (dat2 V c).arrAt 2 cfg2.N = Cert.Gcn.dense2 (F := Ideal) (V c main_v47) (V c main_arg4) :=
  (dat2 V c).arrAt_eq_of_cover 2 _ (fun t _ => flushed_eq V c t) cover

end Cert.KernelIdeal.Region2

end
-- ==== Proof.Region3.lean ====
/-
  Region 3: the second layer's bias, agg + b2, band by band.

  A grid point t handles rows 2000·t … 2000·t + 1999: its first window is that band of the aggregated array, its second
  window the bias as a one-row array, and the body stores  band(p, q) + bias(0, q)  into its output block. That is
  entry (2000·t + p, q) of ONE whole-array function — the specification's biased array — so every point writes back a band
  of it; the 25 bands tile the 50000 rows, and the array ends as that function. The bias reaches the region as a [1, 64]
  array whose entry (0, q) is the bias vector's entry q (hypothesis `hb`, discharged where the region is entered).
-/
import proofs.«112519_j77867757077116_1_alg».proof.Proof.Gen.KernelIdeal.Frame
import proofs.«112519_j77867757077116_1_alg».proof.Proof.SpecAt
import Idealize.ShloMosaic.Lib.ValueLayout

set_option maxRecDepth 16384

noncomputable section

namespace Cert.KernelIdeal.Region3

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem origin : (![0, 0] : Fin 2 → Nat) = fun _ => 0 := funext fun a => by fin_cases a <;> rfl

/-- The body's stored value at (p, q): the loaded band's (p, q) plus the loaded one-row bias at (0, q). -/
theorem payload_apply (x : FVec Ideal S2000x64 .f32) (b : FVec Ideal S1x64 .f32) (p : Fin 2000) (q : Fin 64) :
    k3_pay1 (F := Ideal) x b (ix2 p q) = x (ix2 p q) + b (ix2 (0 : Fin 1) q) := by
  unfold k3_pay1
  show shapeCast S2000x64 x shapeCasts_S2000x64_S2000x64 (ix2 p q)
        + broadcastTo S2000x64 (shapeCast S1x64 b shapeCasts_S1x64_S1x64) broadcasts_S1x64_S2000x64 (ix2 p q) = _
  rw [shapeCast_self, shapeCast_self, broadcastTo_1b_ab_apply]

/-- A band of the aggregated array at row offset o with the bias row: the stored block's (p, q) is the specification's
    biased array at (o + p, q). -/
theorem band_eq (A : (⟨S50000x64, .f32⟩ : BufTy).Contents (Elt Ideal)) (bb : (⟨S64, .f32⟩ : BufTy).Contents (Elt Ideal))
    (x : FVec Ideal S2000x64 .f32) (b : FVec Ideal S1x64 .f32) (o : Nat) (ho : o + 2000 ≤ 50000)
    (hx : ∀ (p : Fin 2000) (q : Fin 64), x (ix2 p q) = A (ix2 ⟨o + p.val, by have := p.isLt; omega⟩ q))
    (hb : ∀ (q : Fin 64), b (ix2 (0 : Fin 1) q) = bb (ix1 q))
    (p : Fin 2000) (q : Fin 64) :
    k3_pay1 (F := Ideal) x b (ix2 p q) = Cert.Gcn.bias (F := Ideal) A bb (ix2 ⟨o + p.val, by have := p.isLt; omega⟩ q) := by
  rw [payload_apply, Cert.Gcn.bias_apply, hx, hb]

/-- The printed index maps over the grid: the input band and the output block move together along the rows, the bias
    row's block stays at the origin, and the output's block index stays below 25. -/
theorem index_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) ≤ 24
    ∧ win3_2.index t (1 : Fin 2) = 0 :=
  (by decide +kernel : ∀ t : Fin grid3.N, _)

/-- Every band of rows is some point's output block. -/
theorem index_onto : ∀ (b : Fin 25), ∃ t : Fin cfg3.N, win3_2.index t = ![b.val, 0] :=
  (by decide +kernel : ∀ (b : Fin 25), ∃ t : Fin grid3.N, win3_2.index t = ![b.val, 0])

/-- What point t writes back is band t of the specification's biased array of the arrays as the region finds them. -/
theorem flushed_eq (c : Dev nD) (bb : (⟨S64, .f32⟩ : BufTy).Contents (Elt Ideal))
    (hb : ∀ (q : Fin 64), V c main_v62 (ix2 (0 : Fin 1) q) = bb (ix1 q)) (t : Fin cfg3.N) :
    (dat3 V c).flushed 2 t
      = ((cfg3.win 2).blk t).view.read (Elt Ideal) (Cert.Gcn.bias (F := Ideal) (V c main_v61) bb) := by
  show (cfg3.win 2).cut (grid3.coords t) ((dat3 V c).after 2 t) = _
  rw [after3_2]
  unfold out3_2
  rw [View.canon_unit_zero origin]
  simp only [View.ld_unit_zero (S := S2000x64) origin, View.ld_unit_zero (S := S1x64) origin]
  obtain ⟨e0, e1, e2, e3, e4, e5⟩ := index_facts t
  funext j
  obtain ⟨p, q, rfl⟩ : ∃ (p : Fin 2000) (q : Fin 64), j = ix2 p q :=
    ⟨⟨(j 0).val, (j 0).isLt⟩, ⟨(j 1).val, (j 1).isLt⟩, by funext a; match a with | ⟨0, _⟩ => rfl | ⟨1, _⟩ => rfl⟩
  have hblk : win3_2.index t (0 : Fin 2) * 2000 + 2000 ≤ 50000 := by omega
  show k3_pay1 (F := Ideal) (iblk3 V c 0 t) (iblk3 V c 1 t) (ix2 p q)
      = Cert.Gcn.bias (F := Ideal) (V c main_v61) bb (((cfg3.win 2).blk t).view.emb (ix2 p q))
  refine (band_eq (V c main_v61) bb (iblk3 V c 0 t) (iblk3 V c 1 t) (win3_2.index t (0 : Fin 2) * 2000) hblk
    (fun p' q' => ?_) (fun q' => ?_) p q).trans ?_
  · show V c main_v61 (((cfg3.win 0).blk t).view.emb (ix2 p' q')) = V c main_v61 _
    refine congrArg (V c main_v61) (funext fun a => Fin.ext ?_)
    match a with
    | ⟨0, _⟩ => show win3_0.index t (0 : Fin 2) * 2000 + 1 * p'.val = win3_2.index t (0 : Fin 2) * 2000 + p'.val; omega
    | ⟨1, _⟩ => show win3_0.index t (1 : Fin 2) * 64 + 1 * q'.val = q'.val; omega
  · refine Eq.trans ?_ (hb q')
    show V c main_v62 (((cfg3.win 1).blk t).view.emb (ix2 (0 : Fin 1) q')) = V c main_v62 _
    refine congrArg (V c main_v62) (funext fun a => Fin.ext ?_)
    match a with
    | ⟨0, _⟩ => show win3_1.index t (0 : Fin 2) * 1 + 1 * 0 = 0; omega
    | ⟨1, _⟩ => show win3_1.index t (1 : Fin 2) * 64 + 1 * q'.val = q'.val; omega
  · refine congrArg (Cert.Gcn.bias (F := Ideal) (V c main_v61) bb) (funext fun a => Fin.ext ?_)
    match a with
    | ⟨0, _⟩ => show win3_2.index t (0 : Fin 2) * 2000 + p.val = win3_2.index t (0 : Fin 2) * 2000 + 1 * p.val; omega
    | ⟨1, _⟩ => show q.val = win3_2.index t (1 : Fin 2) * 64 + 1 * q.val; omega

/-- An index of the array is in point t's block iff each coordinate is in the block's range on its axis. -/
theorem mem_blk (t : Fin cfg3.N) (i : S50000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v63).slice (win3_2.rect t)).set ↔ _
  rw [View.set_slice_whole, Rect.mem_set_unit]
  exact Iff.rfl

/-- The 25 bands cover the array: row r lies in band r / 2000. -/
theorem cover (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ := index_onto ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 64 ≤ (i 1).val ∧ (i 1).val < win3_2.index t (1 : Fin 2) * 64 + 64; omega

/-- The output array after the region: the specification's biased array of the input array and the bias vector. -/
theorem final (c : Dev nD) (bb : (⟨S64, .f32⟩ : BufTy).Contents (Elt Ideal))
    (hb : ∀ (q : Fin 64), V c main_v62 (ix2 (0 : Fin 1) q) = bb (ix1 q)) :
    (dat3 V c).arrAt 2 cfg3.N = Cert.Gcn.bias (F := Ideal) (V c main_v61) bb :=
  (dat3 V c).arrAt_eq_of_cover 2 _ (fun t _ => flushed_eq V c bb hb t) cover

end Cert.KernelIdeal.Region3

end
-- ==== Proof.Stages.lean ====
/-
  The host side of the idealized kernel, read with the specification's stages.

  Between its four regions the program runs the same host operations as the reference: it builds the edge slots (sources,
  destinations), the degree and the slot weights before the first region, aggregates the first dense product before the
  second region, and aggregates the second dense product before the last one. Each boundary's buffers are the fold of the
  operations run so far over the launch contents; here each buffer a later stage reads is identified with the
  specification's stage of the argument arrays:

    at the first region's entry    the sources, the destinations, d and the slot weights;  every argument as launched;
    at the second region's entry   agg of whatever the first region left, and the first bias as a one-row array;
    at the fourth region's entry   agg of whatever the third region left, and the second bias as a one-row array.

  A region writes only its own output array, and a host operation only its own result, so a buffer is carried unchanged
  past everything that does not name it as a result.
-/
import proofs.«112519_j77867757077116_1_alg».proof.Proof.Gen.KernelIdeal.Frame
import proofs.«112519_j77867757077116_1_alg».proof.Proof.Spec
import Idealize.ShloMosaic.Lib.StableHlo.Run
import Idealize.ShloMosaic.Lib.ValueLayout

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo
open Idealize.ShloMosaic.ValueIdx

variable {F : FTy → Type} [FloatOps F]
variable (m : (ℓ : Loc nD τ sig) → Buf (Elt F) ℓ) (ρ : Dev nD → PrngReg)

/-- Reads a buffer back through a literal list of host operations: each operation's result at its own buffer is its
    function of its operands' contents, and any other buffer is what it was (the references' inequality decided). One
    simp pass, then the same lemmas by rewriting for the operands a concatenation holds in its list of pieces. -/
local macro "read_back" : tactic =>
  `(tactic| (
    simp (disch := decide) only [hostOps0, hostOps0_1, hostOps0_2, hostOps1, hostOps3, after_cons, after_nil,
      nullary_result', unary_result', binary_result', ternary_result', reshape_result',
      nullary_result_ne', unary_result_ne', binary_result_ne', ternary_result_ne', reshape_result_ne']
    repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))))

/-! ## At the first region's entry -/

section Entry0
variable (c : Dev nD)

/-- The arguments are as launched: no host operation writes one. -/
theorem arg0_at3 : W3 m ρ c (Proc.devRef .tc main_arg0) = m ((c : Thread nD τ).loc main_arg0) := by
  dsimp only [W3, W2, W1]; read_back; try rfl
theorem arg1_at3 : W3 m ρ c (Proc.devRef .tc main_arg1) = m ((c : Thread nD τ).loc main_arg1) := by
  dsimp only [W3, W2, W1]; read_back; try rfl
theorem arg2_at3 : W3 m ρ c (Proc.devRef .tc main_arg2) = m ((c : Thread nD τ).loc main_arg2) := by
  dsimp only [W3, W2, W1]; read_back; try rfl
theorem arg3_at3 : W3 m ρ c (Proc.devRef .tc main_arg3) = m ((c : Thread nD τ).loc main_arg3) := by
  dsimp only [W3, W2, W1]; read_back; try rfl
theorem arg4_at3 : W3 m ρ c (Proc.devRef .tc main_arg4) = m ((c : Thread nD τ).loc main_arg4) := by
  dsimp only [W3, W2, W1]; read_back; try rfl
theorem arg5_at3 : W3 m ρ c (Proc.devRef .tc main_arg5) = m ((c : Thread nD τ).loc main_arg5) := by
  dsimp only [W3, W2, W1]; read_back; try rfl

/-- The sources of the edge slots. -/
theorem src_at3 : W3 m ρ c (Proc.devRef .tc main_v5) = Cert.Gcn.src (F := F) (m ((c : Thread nD τ).loc main_arg1)) := by
  dsimp only [W3, W2, W1]; read_back
  unfold Cert.Gcn.src; rfl

/-- The destinations of the edge slots. -/
theorem dst_at3 : W3 m ρ c (Proc.devRef .tc main_v6) = Cert.Gcn.dst (F := F) (m ((c : Thread nD τ).loc main_arg1)) := by
  dsimp only [W3, W2, W1]; read_back
  unfold Cert.Gcn.dst; rfl

/-- The slot weights  d(src s) · d(dst s). -/
theorem norm_at3 : W3 m ρ c (Proc.devRef .tc main_v31) = Cert.Gcn.norm (F := F) (m ((c : Thread nD τ).loc main_arg1)) := by
  dsimp only [W3, W2, W1]; read_back
  unfold Cert.Gcn.norm Cert.Gcn.dis Cert.Gcn.deg Cert.Gcn.wrapSrc Cert.Gcn.wrapDst Cert.Gcn.src Cert.Gcn.dst; rfl

end Entry0

/-! ## Carried past the first region -/

section Later
variable (c : Dev nD)

theorem src_at4 : W4 m ρ c (Proc.devRef .tc main_v5) = Cert.Gcn.src (F := F) (m ((c : Thread nD τ).loc main_arg1)) :=
  (W4_of_ne m ρ c main_v5 (by decide)).trans (src_at3 m ρ c)
theorem dst_at4 : W4 m ρ c (Proc.devRef .tc main_v6) = Cert.Gcn.dst (F := F) (m ((c : Thread nD τ).loc main_arg1)) :=
  (W4_of_ne m ρ c main_v6 (by decide)).trans (dst_at3 m ρ c)
theorem norm_at4 : W4 m ρ c (Proc.devRef .tc main_v31) = Cert.Gcn.norm (F := F) (m ((c : Thread nD τ).loc main_arg1)) :=
  (W4_of_ne m ρ c main_v31 (by decide)).trans (norm_at3 m ρ c)
theorem arg3_at4 : W4 m ρ c (Proc.devRef .tc main_arg3) = m ((c : Thread nD τ).loc main_arg3) :=
  (W4_of_ne m ρ c main_arg3 (by decide)).trans (arg3_at3 m ρ c)
theorem arg4_at4 : W4 m ρ c (Proc.devRef .tc main_arg4) = m ((c : Thread nD τ).loc main_arg4) :=
  (W4_of_ne m ρ c main_arg4 (by decide)).trans (arg4_at3 m ρ c)
theorem arg5_at4 : W4 m ρ c (Proc.devRef .tc main_arg5) = m ((c : Thread nD τ).loc main_arg5) :=
  (W4_of_ne m ρ c main_arg5 (by decide)).trans (arg5_at3 m ρ c)

/-! ## At the second region's entry -/

/-- The first aggregation: the host gathers the rows of whatever the first region left at the sources, scales slot s by
    its weight and adds at the destinations — the specification's aggregation of that array. -/
theorem agg1_at5 :
    W5 m ρ c (Proc.devRef .tc main_v45) = Cert.Gcn.agg1 (F := F) (m ((c : Thread nD τ).loc main_arg1)) (W4 m ρ c (Proc.devRef .tc main_v32)) := by
  have h5 := src_at4 m ρ c
  have h6 := dst_at4 m ρ c
  have h31 := norm_at4 m ρ c
  dsimp only [W5]
  generalize W4 m ρ c = X at h5 h6 h31 ⊢
  read_back
  rw [h5, h6, h31]
  unfold Cert.Gcn.agg1 Cert.Gcn.wrapSrc; rfl

/-- The first bias reaches the second region as a one-row array: entry (0, q) is the bias vector's entry q. -/
theorem b1_at5 (q : Fin 128) :
    W5 m ρ c (Proc.devRef .tc main_v46) (ix2 (0 : Fin 1) q) = m ((c : Thread nD τ).loc main_arg3) (ix1 q) := by
  have h3 := arg3_at4 m ρ c
  dsimp only [W5]
  generalize W4 m ρ c = X at h3 ⊢
  read_back
  rw [h3]
  exact shapeCast_a_1a_apply _ _ (0 : Fin 1) q

/-! ## Carried past the first aggregation, the second and the third region -/

theorem src_at5 : W5 m ρ c (Proc.devRef .tc main_v5) = Cert.Gcn.src (F := F) (m ((c : Thread nD τ).loc main_arg1)) := by
  refine Eq.trans ?_ (src_at4 m ρ c)
  dsimp only [W5]; generalize W4 m ρ c = X; read_back
theorem dst_at5 : W5 m ρ c (Proc.devRef .tc main_v6) = Cert.Gcn.dst (F := F) (m ((c : Thread nD τ).loc main_arg1)) := by
  refine Eq.trans ?_ (dst_at4 m ρ c)
  dsimp only [W5]; generalize W4 m ρ c = X; read_back
theorem norm_at5 : W5 m ρ c (Proc.devRef .tc main_v31) = Cert.Gcn.norm (F := F) (m ((c : Thread nD τ).loc main_arg1)) := by
  refine Eq.trans ?_ (norm_at4 m ρ c)
  dsimp only [W5]; generalize W4 m ρ c = X; read_back
theorem arg4_at5 : W5 m ρ c (Proc.devRef .tc main_arg4) = m ((c : Thread nD τ).loc main_arg4) := by
  refine Eq.trans ?_ (arg4_at4 m ρ c)
  dsimp only [W5]; generalize W4 m ρ c = X; read_back
theorem arg5_at5 : W5 m ρ c (Proc.devRef .tc main_arg5) = m ((c : Thread nD τ).loc main_arg5) := by
  refine Eq.trans ?_ (arg5_at4 m ρ c)
  dsimp only [W5]; generalize W4 m ρ c = X; read_back

/-- The second weight array at the third region's entry. -/
theorem arg4_at6 : W6 m ρ c (Proc.devRef .tc main_arg4) = m ((c : Thread nD τ).loc main_arg4) :=
  (W6_of_ne m ρ c main_arg4 (by decide)).trans (arg4_at5 m ρ c)

theorem src_at7 : W7 m ρ c (Proc.devRef .tc main_v5) = Cert.Gcn.src (F := F) (m ((c : Thread nD τ).loc main_arg1)) :=
  (W7_of_ne m ρ c main_v5 (by decide)).trans ((W6_of_ne m ρ c main_v5 (by decide)).trans (src_at5 m ρ c))
theorem dst_at7 : W7 m ρ c (Proc.devRef .tc main_v6) = Cert.Gcn.dst (F := F) (m ((c : Thread nD τ).loc main_arg1)) :=
  (W7_of_ne m ρ c main_v6 (by decide)).trans ((W6_of_ne m ρ c main_v6 (by decide)).trans (dst_at5 m ρ c))
theorem norm_at7 : W7 m ρ c (Proc.devRef .tc main_v31) = Cert.Gcn.norm (F := F) (m ((c : Thread nD τ).loc main_arg1)) :=
  (W7_of_ne m ρ c main_v31 (by decide)).trans ((W6_of_ne m ρ c main_v31 (by decide)).trans (norm_at5 m ρ c))
theorem arg5_at7 : W7 m ρ c (Proc.devRef .tc main_arg5) = m ((c : Thread nD τ).loc main_arg5) :=
  (W7_of_ne m ρ c main_arg5 (by decide)).trans ((W6_of_ne m ρ c main_arg5 (by decide)).trans (arg5_at5 m ρ c))

/-! ## At the fourth region's entry -/

/-- The second aggregation, of whatever the third region left. -/
theorem agg2_at8 :
    W8 m ρ c (Proc.devRef .tc main_v61) = Cert.Gcn.agg2 (F := F) (m ((c : Thread nD τ).loc main_arg1)) (W7 m ρ c (Proc.devRef .tc main_v48)) := by
  have h5 := src_at7 m ρ c
  have h6 := dst_at7 m ρ c
  have h31 := norm_at7 m ρ c
  dsimp only [W8]
  generalize W7 m ρ c = X at h5 h6 h31 ⊢
  read_back
  rw [h5, h6, h31]
  unfold Cert.Gcn.agg2 Cert.Gcn.wrapSrc; rfl

/-- The second bias reaches the fourth region as a one-row array. -/
theorem b2_at8 (q : Fin 64) :
    W8 m ρ c (Proc.devRef .tc main_v62) (ix2 (0 : Fin 1) q) = m ((c : Thread nD τ).loc main_arg5) (ix1 q) := by
  have h5 := arg5_at7 m ρ c
  dsimp only [W8]
  generalize W7 m ρ c = X at h5 ⊢
  read_back
  rw [h5]
  exact shapeCast_a_1a_apply _ _ (0 : Fin 1) q

end Later

end Cert.KernelIdeal.Stages

end
-- ==== Proof.Bridge.lean ====
/-
  The idealized kernel computes the specification.

  The result array ends at what the last region's write-backs leave. Reading backwards: the last region adds the second
  bias to the second aggregation; that aggregation is taken of the third region's output, the second dense product of
  the second region's output; the second region is the bias and positive part of the first aggregation, taken of the
  first region's output, the first dense product of the argument arrays. Each region's array is the specification's
  stage of the arrays the region finds (the region modules), each host stretch the specification's aggregation of the
  array the preceding region left (the host-side module); composed, the result array is the specification's network of
  the six argument arrays.
-/
import proofs.«112519_j77867757077116_1_alg».proof.Proof.Region0
import proofs.«112519_j77867757077116_1_alg».proof.Proof.Region1
import proofs.«112519_j77867757077116_1_alg».proof.Proof.Region2
import proofs.«112519_j77867757077116_1_alg».proof.Proof.Region3
import proofs.«112519_j77867757077116_1_alg».proof.Proof.Stages

set_option maxRecDepth 16384

noncomputable section

namespace Cert.KernelIdeal.Bridge

open Cert.KernelIdeal Cert.KernelIdeal.Gen Cert.KernelIdeal.Stages
open Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD)

/-- After the first region: X · W1. -/
theorem dense1_at4 :
    W4 m ρ c (Proc.devRef .tc main_v32) = Cert.Gcn.dense1 (F := Ideal) (m ((c : Thread nD τ).loc main_arg0)) (m ((c : Thread nD τ).loc main_arg2)) := by
  refine (W4_arr m ρ c 2).trans ((Region0.final (V3 m ρ) c).trans ?_)
  show Cert.Gcn.dense1 (F := Ideal) (W3 m ρ c (Proc.devRef .tc main_arg0)) (W3 m ρ c (Proc.devRef .tc main_arg2)) = _
  rw [arg0_at3, arg2_at3]

/-- After the second region: relu(agg(X · W1) + b1). -/
theorem hidden_at6 :
    W6 m ρ c (Proc.devRef .tc main_v47)
      = Cert.Gcn.biasRelu (F := Ideal) (Cert.Gcn.agg1 (F := Ideal) (m ((c : Thread nD τ).loc main_arg1)) (Cert.Gcn.dense1 (F := Ideal) (m ((c : Thread nD τ).loc main_arg0)) (m ((c : Thread nD τ).loc main_arg2)))) (m ((c : Thread nD τ).loc main_arg3)) := by
  refine (W6_arr m ρ c 2).trans ((Region1.final (V5 m ρ) c (m ((c : Thread nD τ).loc main_arg3)) (fun q => b1_at5 m ρ c q)).trans ?_)
  show Cert.Gcn.biasRelu (F := Ideal) (W5 m ρ c (Proc.devRef .tc main_v45)) _ = _
  rw [agg1_at5, dense1_at4]

/-- After the third region: H · W2 of that hidden array. -/
theorem dense2_at7 :
    W7 m ρ c (Proc.devRef .tc main_v48)
      = Cert.Gcn.dense2 (F := Ideal) (Cert.Gcn.biasRelu (F := Ideal) (Cert.Gcn.agg1 (F := Ideal) (m ((c : Thread nD τ).loc main_arg1)) (Cert.Gcn.dense1 (F := Ideal) (m ((c : Thread nD τ).loc main_arg0)) (m ((c : Thread nD τ).loc main_arg2)))) (m ((c : Thread nD τ).loc main_arg3))) (m ((c : Thread nD τ).loc main_arg4)) := by
  refine (W7_arr m ρ c 2).trans ((Region2.final (V6 m ρ) c).trans ?_)
  show Cert.Gcn.dense2 (F := Ideal) (W6 m ρ c (Proc.devRef .tc main_v47)) (W6 m ρ c (Proc.devRef .tc main_arg4)) = _
  rw [hidden_at6, arg4_at6]

/-- The result array: the specification's network of the six argument arrays. -/
theorem result_eq :
    W9 m ρ c (Proc.devRef .tc main_v63)
      = Cert.Gcn.out (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ((Region3.final (V8 m ρ) c (m ((c : Thread nD τ).loc main_arg5)) (fun q => b2_at8 m ρ c q)).trans ?_)
  show Cert.Gcn.bias (F := Ideal) (W8 m ρ c (Proc.devRef .tc main_v61)) _ = _
  rw [agg2_at8, dense2_at7]
  rfl

end Cert.KernelIdeal.Bridge

end
-- ==== Proof.RefValue.lean ====
/-
  The reference computes the specification.

  The reference's run states its result as one composed term of the argument arrays, every shared stage written out at
  each of its uses. The specification is the same term with the shared stages named once, so the two agree by unfolding
  the names.
-/
import proofs.«112519_j77867757077116_1_alg».proof.Proof.RefRunPatched
import proofs.«112519_j77867757077116_1_alg».proof.Proof.Spec

set_option maxRecDepth 8192

noncomputable section

namespace Cert.Gcn

open Cert.ReferenceIdeal Cert.ReferenceIdeal.Gen Idealize.ShloMosaic Idealize.ShloMosaic.TcCoe Idealize.SL.Sem

variable {F : FTy → Type} [FloatOps F]

/-- The reference's result term is the specification of its argument arrays. -/
theorem reference_eq (m : (ℓ : Loc nD τ sig) → Buf (Elt F) ℓ) (c : Dev nD) :
    Cert.ReferenceIdeal.ValueP.res_main_v66 m c
      = out (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v66 out bias agg2 dense2 biasRelu agg1 dense1 norm dis deg wrapSrc wrapDst src dst
  rfl

end Cert.Gcn

end
-- ==== Proof.lean ====
/-
  The certificate of a two-layer graph convolution: two dense transforms and two bias stages as pipelined kernels, the
  degree normalisation and the gather / scatter-add aggregation on the host, against the same network written with host
  operations only.

  On the extended reals both programs compute  out = agg(relu(agg(X · W1) + b1) · W2) + b2  (Proof/Spec.lean): the
  kernel's narrowing of the dense operands to a shorter float format is the identity, a product accumulated into zero is
  the product, a dense product computed band by band is the product of the whole arrays, and the host stretches around
  the regions are the reference's own operations on the same arrays. No step needs the inputs to be finite, so the
  precondition is never opened. The ideal pass rewrote nothing, so the idealized kernel is the kernel's own text.

  The three frames: the two kernels' are the generated frame certificates; the reference's is its run with the result
  dropped.
-/
import proofs.«112519_j77867757077116_1_alg».proof.Defs
import proofs.«112519_j77867757077116_1_alg».proof.Proof.Gen.Kernel
import proofs.«112519_j77867757077116_1_alg».proof.Proof.Gen.Kernel.Frame
import proofs.«112519_j77867757077116_1_alg».proof.Proof.Gen.KernelIdeal
import proofs.«112519_j77867757077116_1_alg».proof.Proof.Gen.KernelIdeal.Frame
import proofs.«112519_j77867757077116_1_alg».proof.Proof.Gen.ReferenceIdeal
import proofs.«112519_j77867757077116_1_alg».proof.Proof.Gen.Pre_finite_inputs
import proofs.«112519_j77867757077116_1_alg».proof.Proof.KernelRun
import proofs.«112519_j77867757077116_1_alg».proof.Proof.Bridge
import proofs.«112519_j77867757077116_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass's ledger is empty. -/
theorem preserves : Cert.preserves_Kernel_KernelIdeal := trivial

/-- Both runs end with the result array at the specification's network of arguments that agree. -/
theorem algebraic : Cert.algebraic_KernelIdeal_ReferenceIdeal := by
  intro m ρ m' ρ' _ hagree
  refine ⟨fun c => Cert.Gcn.out (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Bridge.result_eq m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.Gcn.reference_eq, (hagree c).1, (hagree c).2.1, (hagree c).2.2.1, (hagree c).2.2.2.1, (hagree c).2.2.2.2.1,
      (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
